-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S48x512x512 : Shape := ⟨3, ![48, 512, 512]⟩
abbrev S48x1024x1024 : Shape := ⟨3, ![48, 1024, 1024]⟩
abbrev S1x128x512 : Shape := ⟨3, ![1, 128, 512]⟩
abbrev S1x256x1024 : Shape := ⟨3, ![1, 256, 1024]⟩
abbrev S1x128x512x1 : Shape := ⟨4, ![1, 128, 512, 1]⟩
abbrev S1x128x512x2 : Shape := ⟨4, ![1, 128, 512, 2]⟩
abbrev S1x128x1024 : Shape := ⟨3, ![1, 128, 1024]⟩
abbrev S1x128x1x1024 : Shape := ⟨4, ![1, 128, 1, 1024]⟩
abbrev S1x128x2x1024 : Shape := ⟨4, ![1, 128, 2, 1024]⟩
abbrev S16x3x1024x1024 : Shape := ⟨4, ![16, 3, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S48x512x512, .f32⟩
  | .hbm, ⟨3, _⟩ => ⟨S48x512x512, .f32⟩
  | .hbm, ⟨4, _⟩ => ⟨S48x1024x1024, .f32⟩
  | .hbm, ⟨5, _⟩ => ⟨S16x3x1024x1024, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x256x1024, .f32⟩
  | .local _ .vmem, ⟨5, _⟩ => ⟨S1x256x1024, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![48, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x3x512x512_S48x512x512 : S16x3x512x512.ShapeCasts S48x512x512
  inb_S1x128x512_S1x128x512_0_0_0 : ∀ a, (![0, 0, 0] : Fin 3 → Nat) a + S1x128x512.size a ≤ S1x128x512.size a
  h_S1x128x512 : 0 < S1x128x512.numel
  shapeCasts_S1x128x512_S1x128x512 : S1x128x512.ShapeCasts S1x128x512
  shapeCasts_S1x128x512_S1x128x512x1 : S1x128x512.ShapeCasts S1x128x512x1
  concatenates_S1x128x512x1_S1x128x512x1_S1x128x512x2_d3 : Shape.Concatenates [S1x128x512x1, S1x128x512x1] S1x128x512x2 3
  shapeCasts_S1x128x512x2_S1x128x1024 : S1x128x512x2.ShapeCasts S1x128x1024
  shapeCasts_S1x128x1024_S1x128x1x1024 : S1x128x1024.ShapeCasts S1x128x1x1024
  concatenates_S1x128x1x1024_S1x128x1x1024_S1x128x2x1024_d2 : Shape.Concatenates [S1x128x1x1024, S1x128x1x1024] S1x128x2x1024 2
  shapeCasts_S1x128x2x1024_S1x256x1024 : S1x128x2x1024.ShapeCasts S1x256x1024
  inb_S1x256x1024_S1x256x1024_0_0_0 : ∀ a, (![0, 0, 0] : Fin 3 → Nat) a + S1x256x1024.size a ≤ S1x256x1024.size a
  h_S1x256x1024 : 0 < S1x256x1024.numel
  shapeCasts_S48x1024x1024_S16x3x1024x1024 : S48x1024x1024.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S48x512x512.size a
  hwx0_0 : ∀ i : grid0.Coords, EltTy.bits .f32 = 32 ∨ (Rect.block (s := S48x512x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S48x512x512.size a
  hwx0_1 : ∀ i : grid0.Coords, EltTy.bits .f32 = 32 ∨ (Rect.block (s := S48x512x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S48x1024x1024.size a
  hwx0_2 : ∀ i : grid0.Coords, EltTy.bits .f32 = 32 ∨ (Rect.block (s := S48x1024x1024) S1x256x1024.size (cc0_transform_2 i) (hinb0_2 i)).WholeWords (EltTy.packing .f32)

variable [Facts₀]

abbrev win0_0 : Pipeline.Window sig grid0 :=
  Pipeline.Window.ofSpec (Memref.whole main_v0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x512x512 : Shape := ⟨4, ![16, 3, 512, 512]⟩
abbrev S16x3x512x512x1 : Shape := ⟨5, ![16, 3, 512, 512, 1]⟩
abbrev S16x3x512x512x2 : Shape := ⟨5, ![16, 3, 512, 512, 2]⟩
abbrev S16x3x512x1024 : Shape := ⟨4, ![16, 3, 512, 1024]⟩
abbrev S16x3x512x1x1024 : Shape := ⟨5, ![16, 3, 512, 1, 1024]⟩
abbrev S16x3x512x2x1024 : Shape := ⟨5, ![16, 3, 512, 2, 1024]⟩
abbrev S16x3x1024x1024 : Shape := ⟨4, ![16, 3, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512x1, .f32⟩
  | .hbm, ⟨3, _⟩ => ⟨S16x3x512x512x1, .f32⟩
  | .hbm, ⟨4, _⟩ => ⟨S16x3x512x512x2, .f32⟩
  | .hbm, ⟨5, _⟩ => ⟨S16x3x512x1024, .f32⟩
  | .hbm, ⟨6, _⟩ => ⟨S16x3x512x512x1, .f32⟩
  | .hbm, ⟨7, _⟩ => ⟨S16x3x512x512x1, .f32⟩
  | .hbm, ⟨8, _⟩ => ⟨S16x3x512x512x2, .f32⟩
  | .hbm, ⟨9, _⟩ => ⟨S16x3x512x1024, .f32⟩
  | .hbm, ⟨10, _⟩ => ⟨S16x3x512x1x1024, .f32⟩
  | .hbm, ⟨11, _⟩ => ⟨S16x3x512x1x1024, .f32⟩
  | .hbm, ⟨12, _⟩ => ⟨S16x3x512x2x1024, .f32⟩
  | .hbm, ⟨13, _⟩ => ⟨S16x3x1024x1024, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]

class Facts₀ : Prop where
  bcast_S16x3x512x512_S16x3x512x512x1_0_1_2_3 : S16x3x512x512.BroadcastsInDim S16x3x512x512x1 (![0, 1, 2, 3] : Fin 4 → Fin S16x3x512x512x1.rank)
  concatenates_S16x3x512x512x1_S16x3x512x512x1_S16x3x512x512x2_d4 : Shape.Concatenates [S16x3x512x512x1, S16x3x512x512x1] S16x3x512x512x2 4
  shapeCasts_S16x3x512x512x2_S16x3x512x1024 : S16x3x512x512x2.ShapeCasts S16x3x512x1024
  bcast_S16x3x512x1024_S16x3x512x1x1024_0_1_2_4 : S16x3x512x1024.BroadcastsInDim S16x3x512x1x1024 (![0, 1, 2, 4] : Fin 4 → Fin S16x3x512x1x1024.rank)
  concatenates_S16x3x512x1x1024_S16x3x512x1x1024_S16x3x512x2x1024_d3 : Shape.Concatenates [S16x3x512x1x1024, S16x3x512x1x1024] S16x3x512x2x1024 3
  shapeCasts_S16x3x512x2x1024_S16x3x1024x1024 : S16x3x512x2x1024.ShapeCasts S16x3x1024x1024

variable [Facts₀]

class Facts : Prop extends Facts₀ where

variable [Facts]
-- ==== Proof.Checker.lean ====
/-
  The checkerboard interleave of two arrays, as ONE function, entry by entry.

  Two arrays `u`, `d` of 512 × 512 planes give an array of 1024 × 1024 planes: entry (R, C) of a plane is
  `d` at (R / 2, C / 2) when R and C have the same parity, and `u` there otherwise. It is written on the row's
  parity first and the column's second — an even row reads d, u, d, u, …, an odd row u, d, u, d, … — over
  16 × 3 planes (`checker4`) and over the same 48 planes numbered along one axis (`checker3`).
  `reshape_checker3`: numbering the planes along one axis, interleaving, and splitting the planes' axis again
  is interleaving the 16 × 3 planes — plane (a, b) is plane 3 a + b, and the interleave never mixes planes.
-/
import Idealize.ShloMosaic.Lib.Pipeline.Value
import Idealize.ShloMosaic.Lib.ValueIdx

noncomputable section

namespace Cert.Checker

open Idealize.ShloMosaic Idealize.ShloMosaic.ValueIdx

variable {α : Type}

/-- Half of a row or column number of the result: the row or column of the source it comes from. -/
abbrev hf (r : Fin 1024) : Fin 512 := ⟨r.val / 2, by have := r.isLt; omega⟩

/-- Entry (r, s) of one result plane, from the plane's two sources as functions of a source row and column. -/
def cell (uu dd : Fin 512 → Fin 512 → α) (r s : Fin 1024) : α :=
  if r.val % 2 = 0 then (if s.val % 2 = 0 then dd (hf r) (hf s) else uu (hf r) (hf s))
  else (if s.val % 2 = 0 then uu (hf r) (hf s) else dd (hf r) (hf s))

/-- The interleave over 16 × 3 planes. -/
def checker4 (u d : (⟨4, ![16, 3, 512, 512]⟩ : Shape).Idx → α) : (⟨4, ![16, 3, 1024, 1024]⟩ : Shape).Idx → α :=
  fun i => cell (fun r s => u (ix4 (n0 := 16) (n1 := 3) (i 0) (i 1) r s)) (fun r s => d (ix4 (n0 := 16) (n1 := 3) (i 0) (i 1) r s)) (i 2) (i 3)

/-- The interleave over 48 planes. -/
def checker3 (u d : (⟨3, ![48, 512, 512]⟩ : Shape).Idx → α) : (⟨3, ![48, 1024, 1024]⟩ : Shape).Idx → α :=
  fun i => cell (fun r s => u (ix3 (n0 := 48) (i 0) r s)) (fun r s => d (ix3 (n0 := 48) (i 0) r s)) (i 1) (i 2)

/-- Plane (a, b) of 16 × 3 is plane 3 a + b of 48. -/
abbrev plane (a : Fin 16) (b : Fin 3) : Fin 48 := ⟨a.val * 3 + b.val, by have := a.isLt; have := b.isLt; omega⟩

/-- An array of 16 × 3 planes re-read as 48 planes holds, in plane 3 a + b, plane (a, b): the two entries have the
    same row-major position. -/
theorem planes_apply (x : (⟨4, ![16, 3, 512, 512]⟩ : Shape).Idx → α)
    (h : (⟨4, ![16, 3, 512, 512]⟩ : Shape).ShapeCasts ⟨3, ![48, 512, 512]⟩) (a : Fin 16) (b : Fin 3) (r s : Fin 512) :
    shapeCast ⟨3, ![48, 512, 512]⟩ x h (ix3 (plane a b) r s) = x (ix4 a b r s) := by
  refine shapeCast_apply x h _ _ ?_
  rewrite [Shape.rowMajor_val_three, Shape.rowMajor_val_four]
  show ((a.val * 3 + b.val) * 512 + r.val) * 512 + s.val = ((a.val * 3 + b.val) * 512 + r.val) * 512 + s.val
  rfl

/-- Interleaving the 48 planes of two arrays of 16 × 3 planes, then splitting the planes' axis back into 16 × 3, is
    interleaving the 16 × 3 planes. -/
theorem reshape_checker3 (u d : (⟨4, ![16, 3, 512, 512]⟩ : Shape).Idx → α)
    (h43 : (⟨4, ![16, 3, 512, 512]⟩ : Shape).ShapeCasts ⟨3, ![48, 512, 512]⟩)
    (h34 : (⟨3, ![48, 1024, 1024]⟩ : Shape).ShapeCasts ⟨4, ![16, 3, 1024, 1024]⟩) :
    shapeCast ⟨4, ![16, 3, 1024, 1024]⟩
        (checker3 (shapeCast ⟨3, ![48, 512, 512]⟩ u h43) (shapeCast ⟨3, ![48, 512, 512]⟩ d h43)) h34
      = checker4 u d := by
  funext i
  obtain ⟨a, b, r, s, rfl⟩ : ∃ (a : Fin 16) (b : Fin 3) (r s : Fin 1024), i = ix4 a b r s :=
    ⟨i 0, i 1, i 2, i 3, eq_ix4 i⟩
  refine (shapeCast_apply _ h34 (ix4 a b r s) (ix3 (plane a b) r s) ?_).trans ?_
  · rewrite [Shape.rowMajor_val_three, Shape.rowMajor_val_four]
    show ((a.val * 3 + b.val) * 1024 + r.val) * 1024 + s.val = ((a.val * 3 + b.val) * 1024 + r.val) * 1024 + s.val
    rfl
  · show cell (fun r' s' => shapeCast ⟨3, ![48, 512, 512]⟩ u h43 (ix3 (plane a b) r' s'))
        (fun r' s' => shapeCast ⟨3, ![48, 512, 512]⟩ d h43 (ix3 (plane a b) r' s')) r s
      = cell (fun r' s' => u (ix4 a b r' s')) (fun r' s' => d (ix4 a b r' s')) r s
    simp only [planes_apply]

end Cert.Checker

end
-- ==== Proof.RefChecker.lean ====
/-
  The reference computes the checkerboard interleave.

  The reference builds its result in two layers. `cols x y` lays two arrays side by side entry by entry along the
  columns: each gets a trailing axis of extent one, the two are joined along it, and the pair of axes (column, 2) is
  merged into one axis of twice the columns — so column c of the result is `x` at column c / 2 when c is even and
  `y` there when c is odd. `rows e o` does the same along the rows with a new axis in front of the columns: row r is
  row r / 2 of `e` when r is even and of `o` when r is odd. The reference's result is
  `rows (cols d u) (cols u d)`: even rows read d, u, d, u, …, odd rows u, d, u, d, … — the interleave `checker4 u d`.
-/
import proofs.«150761_j70944269795383_1_alg».proof.Proof.Gen.ReferenceIdeal.Read
import proofs.«150761_j70944269795383_1_alg».proof.Proof.Checker

noncomputable section

namespace Cert.ReferenceIdeal.RefChecker

open Cert.ReferenceIdeal Cert.ReferenceIdeal.Gen Cert.ReferenceIdeal.Read
open Idealize.ShloMosaic Idealize.ShloMosaic.ValueIdx Cert.Checker

variable {F : FTy → Type} [FloatOps F]

/-- Two arrays side by side along the columns: a trailing unit axis on each, joined along it, the last two axes merged. -/
def cols (x y : (⟨S16x3x512x512, .f32⟩ : BufTy).Contents (Elt F)) : (⟨S16x3x512x1024, .f32⟩ : BufTy).Contents (Elt F) :=
  shapeCast _ (concatenate S16x3x512x512x2 4
    [⟨S16x3x512x512x1, broadcastInDim S16x3x512x512x1 ![0, 1, 2, 3] bcast_S16x3x512x512_S16x3x512x512x1_0_1_2_3 x⟩,
     ⟨S16x3x512x512x1, broadcastInDim S16x3x512x512x1 ![0, 1, 2, 3] bcast_S16x3x512x512_S16x3x512x512x1_0_1_2_3 y⟩]
    concatenates_S16x3x512x512x1_S16x3x512x512x1_S16x3x512x512x2_d4) shapeCasts_S16x3x512x512x2_S16x3x512x1024

/-- Two arrays row by row in turn: a unit axis in front of the columns on each, joined along it, merged with the rows. -/
def rows (e o : (⟨S16x3x512x1024, .f32⟩ : BufTy).Contents (Elt F)) : (⟨S16x3x1024x1024, .f32⟩ : BufTy).Contents (Elt F) :=
  shapeCast _ (concatenate S16x3x512x2x1024 3
    [⟨S16x3x512x1x1024, broadcastInDim S16x3x512x1x1024 ![0, 1, 2, 4] bcast_S16x3x512x1024_S16x3x512x1x1024_0_1_2_4 e⟩,
     ⟨S16x3x512x1x1024, broadcastInDim S16x3x512x1x1024 ![0, 1, 2, 4] bcast_S16x3x512x1024_S16x3x512x1x1024_0_1_2_4 o⟩]
    concatenates_S16x3x512x1x1024_S16x3x512x1x1024_S16x3x512x2x1024_d3) shapeCasts_S16x3x512x2x1024_S16x3x1024x1024

/-- An array with a trailing unit axis, read at (a, b, r, q, 0), is the array at (a, b, r, q). -/
theorem unitLast_apply (x : (⟨S16x3x512x512, .f32⟩ : BufTy).Contents (Elt F)) (a : Fin 16) (b : Fin 3) (r q : Fin 512) (z : Fin 1) :
    broadcastInDim S16x3x512x512x1 ![0, 1, 2, 3] bcast_S16x3x512x512_S16x3x512x512x1_0_1_2_3 x (ix5 a b r q z) = x (ix4 a b r q) :=
  broadcastInDim_apply _ bcast_S16x3x512x512_S16x3x512x512x1_0_1_2_3 x _ (ix4 a b r q) (fun e => match e with
    | ⟨0, _⟩ => by show a.val = if (16 : Nat) = 1 then 0 else a.val; rw [if_neg (by decide)]
    | ⟨1, _⟩ => by show b.val = if (3 : Nat) = 1 then 0 else b.val; rw [if_neg (by decide)]
    | ⟨2, _⟩ => by show r.val = if (512 : Nat) = 1 then 0 else r.val; rw [if_neg (by decide)]
    | ⟨3, _⟩ => by show q.val = if (512 : Nat) = 1 then 0 else q.val; rw [if_neg (by decide)])

/-- An array with a unit axis in front of its columns, read at (a, b, r, 0, c), is the array at (a, b, r, c). -/
theorem unitRow_apply (x : (⟨S16x3x512x1024, .f32⟩ : BufTy).Contents (Elt F)) (a : Fin 16) (b : Fin 3) (r : Fin 512) (z : Fin 1) (c : Fin 1024) :
    broadcastInDim S16x3x512x1x1024 ![0, 1, 2, 4] bcast_S16x3x512x1024_S16x3x512x1x1024_0_1_2_4 x (ix5 a b r z c) = x (ix4 a b r c) :=
  broadcastInDim_apply _ bcast_S16x3x512x1024_S16x3x512x1x1024_0_1_2_4 x _ (ix4 a b r c) (fun e => match e with
    | ⟨0, _⟩ => by show a.val = if (16 : Nat) = 1 then 0 else a.val; rw [if_neg (by decide)]
    | ⟨1, _⟩ => by show b.val = if (3 : Nat) = 1 then 0 else b.val; rw [if_neg (by decide)]
    | ⟨2, _⟩ => by show r.val = if (512 : Nat) = 1 then 0 else r.val; rw [if_neg (by decide)]
    | ⟨3, _⟩ => by show c.val = if (1024 : Nat) = 1 then 0 else c.val; rw [if_neg (by decide)])

/-- Column c of `cols x y` is column c / 2 of `x` when c is even, of `y` when c is odd: entry (…, c) of the merged
    axis is entry (…, c / 2, c % 2) of the joined array, whose last coordinate picks the piece. -/
theorem cols_apply (x y : (⟨S16x3x512x512, .f32⟩ : BufTy).Contents (Elt F)) (a : Fin 16) (b : Fin 3) (r : Fin 512) (c : Fin 1024) :
    cols x y (ix4 a b r c) = if c.val % 2 = 0 then x (ix4 a b r (hf c)) else y (ix4 a b r (hf c)) := by
  have hc := c.isLt
  unfold cols
  refine (shapeCast_apply _ shapeCasts_S16x3x512x512x2_S16x3x512x1024 (ix4 a b r c)
    (ix5 a b r (hf c) (⟨c.val % 2, by omega⟩ : Fin 2)) ?_).trans ?_
  · rewrite [Shape.rowMajor_val_five, Shape.rowMajor_val_four]
    show (((a.val * 3 + b.val) * 512 + r.val) * 512 + c.val / 2) * 2 + c.val % 2 = ((a.val * 3 + b.val) * 512 + r.val) * 1024 + c.val
    omega
  · by_cases h0 : c.val % 2 = 0
    · rw [if_pos h0]
      refine (concatenate_pair_apply_left (t := S16x3x512x512x2) (s₁ := S16x3x512x512x1) (s₂ := S16x3x512x512x1) (4 : Fin 5) _ _ concatenates_S16x3x512x512x1_S16x3x512x512x1_S16x3x512x512x2_d4 _ rfl
        (ix5 a b r (hf c) (0 : Fin 1)) ?_).trans (unitLast_apply x a b r (hf c) 0)
      intro e
      match e with
      | ⟨0, _⟩ => rfl
      | ⟨1, _⟩ => rfl
      | ⟨2, _⟩ => rfl
      | ⟨3, _⟩ => rfl
      | ⟨4, _⟩ => show (0 : Nat) = c.val % 2; omega
    · rw [if_neg h0]
      refine (concatenate_pair_apply_right (t := S16x3x512x512x2) (s₁ := S16x3x512x512x1) (s₂ := S16x3x512x512x1) (4 : Fin 5) _ _ concatenates_S16x3x512x512x1_S16x3x512x512x1_S16x3x512x512x2_d4 _ rfl rfl
        (ix5 a b r (hf c) (0 : Fin 1)) ?_ ?_).trans (unitLast_apply y a b r (hf c) 0)
      · intro e he
        match e, he with
        | ⟨0, _⟩, _ => rfl
        | ⟨1, _⟩, _ => rfl
        | ⟨2, _⟩, _ => rfl
        | ⟨3, _⟩, _ => rfl
        | ⟨4, _⟩, he => exact absurd rfl he
      · show (0 : Nat) + 1 = c.val % 2; omega

/-- Row r of `rows e o` is row r / 2 of `e` when r is even, of `o` when r is odd. -/
theorem rows_apply (e o : (⟨S16x3x512x1024, .f32⟩ : BufTy).Contents (Elt F)) (a : Fin 16) (b : Fin 3) (r c : Fin 1024) :
    rows e o (ix4 a b r c) = if r.val % 2 = 0 then e (ix4 a b (hf r) c) else o (ix4 a b (hf r) c) := by
  have hr := r.isLt
  unfold rows
  refine (shapeCast_apply _ shapeCasts_S16x3x512x2x1024_S16x3x1024x1024 (ix4 a b r c)
    (ix5 a b (hf r) (⟨r.val % 2, by omega⟩ : Fin 2) c) ?_).trans ?_
  · rewrite [Shape.rowMajor_val_five, Shape.rowMajor_val_four]
    show ((((a.val * 3 + b.val) * 512 + r.val / 2) * 2 + r.val % 2) * 1024 + c.val) = ((a.val * 3 + b.val) * 1024 + r.val) * 1024 + c.val
    omega
  · by_cases h0 : r.val % 2 = 0
    · rw [if_pos h0]
      refine (concatenate_pair_apply_left (t := S16x3x512x2x1024) (s₁ := S16x3x512x1x1024) (s₂ := S16x3x512x1x1024) (3 : Fin 5) _ _ concatenates_S16x3x512x1x1024_S16x3x512x1x1024_S16x3x512x2x1024_d3 _ rfl
        (ix5 a b (hf r) (0 : Fin 1) c) ?_).trans (unitRow_apply e a b (hf r) 0 c)
      intro k
      match k with
      | ⟨0, _⟩ => rfl
      | ⟨1, _⟩ => rfl
      | ⟨2, _⟩ => rfl
      | ⟨3, _⟩ => show (0 : Nat) = r.val % 2; omega
      | ⟨4, _⟩ => rfl
    · rw [if_neg h0]
      refine (concatenate_pair_apply_right (t := S16x3x512x2x1024) (s₁ := S16x3x512x1x1024) (s₂ := S16x3x512x1x1024) (3 : Fin 5) _ _ concatenates_S16x3x512x1x1024_S16x3x512x1x1024_S16x3x512x2x1024_d3 _ rfl rfl
        (ix5 a b (hf r) (0 : Fin 1) c) ?_ ?_).trans (unitRow_apply o a b (hf r) 0 c)
      · intro k hk
        match k, hk with
        | ⟨0, _⟩, _ => rfl
        | ⟨1, _⟩, _ => rfl
        | ⟨2, _⟩, _ => rfl
        | ⟨3, _⟩, hk => exact absurd rfl hk
        | ⟨4, _⟩, _ => rfl
      · show (0 : Nat) + 1 = r.val % 2; omega

/-- THE REFERENCE'S RESULT is the interleave of its two arguments: even rows d, u, d, u, …, odd rows u, d, u, d, …. -/
theorem result_eq (u d : (⟨S16x3x512x512, .f32⟩ : BufTy).Contents (Elt F)) :
    val_main_v11 (F := F) u d = checker4 u d := by
  funext i
  obtain ⟨a, b, r, s, rfl⟩ : ∃ (a : Fin 16) (b : Fin 3) (r s : Fin 1024), i = ix4 a b r s :=
    ⟨i 0, i 1, i 2, i 3, eq_ix4 i⟩
  show rows (cols d u) (cols u d) (ix4 a b r s)
    = cell (fun r' s' => u (ix4 a b r' s')) (fun r' s' => d (ix4 a b r' s')) r s
  rw [rows_apply, cols_apply, cols_apply]
  rfl

end Cert.ReferenceIdeal.RefChecker

end
-- ==== Proof.BodyChecker.lean ====
/-
  What the kernel body stores, entry by entry.

  The body loads one block of 128 rows of `u` and of `d` (one plane, all 512 columns) and builds its 256 × 1024
  output block in the same two layers as the whole-array interleave: `colsK x y` lays two blocks side by side along
  the columns (a trailing unit axis on each, joined, the last two axes merged: column c is column c / 2 of `x` for c
  even, of `y` for c odd), `rowsK e o` takes rows in turn (row r is row r / 2 of `e` for r even, of `o` for r odd).
  The stored value is `rowsK (colsK d u) (colsK u d)`, so entry (r, s) of the output block is the interleave's cell
  at (r, s) of the two loaded blocks (`pay_apply`).
-/
import proofs.«150761_j70944269795383_1_alg».proof.Proof.Gen.KernelIdeal.Skeleton
import proofs.«150761_j70944269795383_1_alg».proof.Proof.Checker
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.ValueIdx Cert.Checker

variable {F : FTy → Type} [FloatOps F]

/-- Half of a row number of the output block: the row of the input blocks it comes from. -/
abbrev hfb (r : Fin 256) : Fin 128 := ⟨r.val / 2, by have := r.isLt; omega⟩

/-- Two blocks side by side along the columns. -/
def colsK (x y : FVec F S1x128x512 .f32) : FVec F S1x128x1024 .f32 :=
  shapeCast S1x128x1024 (concatenate S1x128x512x2 3
    [⟨S1x128x512x1, shapeCast S1x128x512x1 x shapeCasts_S1x128x512_S1x128x512x1⟩,
     ⟨S1x128x512x1, shapeCast S1x128x512x1 y shapeCasts_S1x128x512_S1x128x512x1⟩]
    concatenates_S1x128x512x1_S1x128x512x1_S1x128x512x2_d3) shapeCasts_S1x128x512x2_S1x128x1024

/-- Two blocks row by row in turn. -/
def rowsK (e o : FVec F S1x128x1024 .f32) : FVec F S1x256x1024 .f32 :=
  shapeCast S1x256x1024 (concatenate S1x128x2x1024 2
    [⟨S1x128x1x1024, shapeCast S1x128x1x1024 e shapeCasts_S1x128x1024_S1x128x1x1024⟩,
     ⟨S1x128x1x1024, shapeCast S1x128x1x1024 o shapeCasts_S1x128x1024_S1x128x1x1024⟩]
    concatenates_S1x128x1x1024_S1x128x1x1024_S1x128x2x1024_d2) shapeCasts_S1x128x2x1024_S1x256x1024

/-- The stored value is the two layers over the loaded blocks (the casts of a block to its own shape are the identity). -/
theorem pay_eq (v0 v2 : Vec F S1x128x512 .f32) : k0_pay1 v0 v2 = rowsK (colsK v2 v0) (colsK v0 v2) := by
  have e0 : shapeCast S1x128x512 v0 shapeCasts_S1x128x512_S1x128x512 = v0 := shapeCast_self v0 _
  have e2 : shapeCast S1x128x512 v2 shapeCasts_S1x128x512_S1x128x512 = v2 := shapeCast_self v2 _
  show rowsK (colsK (shapeCast S1x128x512 v2 shapeCasts_S1x128x512_S1x128x512) (shapeCast S1x128x512 v0 shapeCasts_S1x128x512_S1x128x512))
      (colsK (shapeCast S1x128x512 v0 shapeCasts_S1x128x512_S1x128x512) (shapeCast S1x128x512 v2 shapeCasts_S1x128x512_S1x128x512)) = _
  rw [e0, e2]

/-- A block with a trailing unit axis, read at (z, p, q, 0), is the block at (z, p, q): same row-major position. -/
theorem unitLastK_apply (x : FVec F S1x128x512 .f32) (z : Fin 1) (p : Fin 128) (q : Fin 512) (w : Fin 1) :
    shapeCast S1x128x512x1 x shapeCasts_S1x128x512_S1x128x512x1 (ix4 z p q w) = x (ix3 z p q) := by
  have hw := w.isLt
  refine shapeCast_apply x _ _ _ ?_
  rewrite [Shape.rowMajor_val_three, Shape.rowMajor_val_four]
  show (z.val * 128 + p.val) * 512 + q.val = ((z.val * 128 + p.val) * 512 + q.val) * 1 + w.val
  omega

/-- A block with a unit axis in front of its columns, read at (z, p, 0, c), is the block at (z, p, c). -/
theorem unitRowK_apply (x : FVec F S1x128x1024 .f32) (z : Fin 1) (p : Fin 128) (w : Fin 1) (c : Fin 1024) :
    shapeCast S1x128x1x1024 x shapeCasts_S1x128x1024_S1x128x1x1024 (ix4 z p w c) = x (ix3 z p c) := by
  have hw := w.isLt
  refine shapeCast_apply x _ _ _ ?_
  rewrite [Shape.rowMajor_val_three, Shape.rowMajor_val_four]
  show (z.val * 128 + p.val) * 1024 + c.val = ((z.val * 128 + p.val) * 1 + w.val) * 1024 + c.val
  omega

/-- Column c of `colsK x y` is column c / 2 of `x` when c is even, of `y` when c is odd. -/
theorem colsK_apply (x y : FVec F S1x128x512 .f32) (z : Fin 1) (p : Fin 128) (c : Fin 1024) :
    colsK x y (ix3 z p c) = if c.val % 2 = 0 then x (ix3 z p (hf c)) else y (ix3 z p (hf c)) := by
  have hc := c.isLt
  unfold colsK
  refine (shapeCast_apply _ shapeCasts_S1x128x512x2_S1x128x1024 (ix3 z p c)
    (ix4 z p (hf c) (⟨c.val % 2, by omega⟩ : Fin 2)) ?_).trans ?_
  · rewrite [Shape.rowMajor_val_four, Shape.rowMajor_val_three]
    show ((z.val * 128 + p.val) * 512 + c.val / 2) * 2 + c.val % 2 = (z.val * 128 + p.val) * 1024 + c.val
    omega
  · by_cases h0 : c.val % 2 = 0
    · rw [if_pos h0]
      refine (concatenate_pair_apply_left (t := S1x128x512x2) (s₁ := S1x128x512x1) (s₂ := S1x128x512x1) (3 : Fin 4) _ _ concatenates_S1x128x512x1_S1x128x512x1_S1x128x512x2_d3 _ rfl
        (ix4 z p (hf c) (0 : Fin 1)) ?_).trans (unitLastK_apply x z p (hf c) 0)
      intro e
      match e with
      | ⟨0, _⟩ => rfl
      | ⟨1, _⟩ => rfl
      | ⟨2, _⟩ => rfl
      | ⟨3, _⟩ => show (0 : Nat) = c.val % 2; omega
    · rw [if_neg h0]
      refine (concatenate_pair_apply_right (t := S1x128x512x2) (s₁ := S1x128x512x1) (s₂ := S1x128x512x1) (3 : Fin 4) _ _ concatenates_S1x128x512x1_S1x128x512x1_S1x128x512x2_d3 _ rfl rfl
        (ix4 z p (hf c) (0 : Fin 1)) ?_ ?_).trans (unitLastK_apply y z p (hf c) 0)
      · intro e he
        match e, he with
        | ⟨0, _⟩, _ => rfl
        | ⟨1, _⟩, _ => rfl
        | ⟨2, _⟩, _ => rfl
        | ⟨3, _⟩, he => exact absurd rfl he
      · show (0 : Nat) + 1 = c.val % 2; omega

/-- Row r of `rowsK e o` is row r / 2 of `e` when r is even, of `o` when r is odd. -/
theorem rowsK_apply (e o : FVec F S1x128x1024 .f32) (z : Fin 1) (r : Fin 256) (c : Fin 1024) :
    rowsK e o (ix3 z r c) = if r.val % 2 = 0 then e (ix3 z (hfb r) c) else o (ix3 z (hfb r) c) := by
  have hr := r.isLt
  unfold rowsK
  refine (shapeCast_apply _ shapeCasts_S1x128x2x1024_S1x256x1024 (ix3 z r c)
    (ix4 z (hfb r) (⟨r.val % 2, by omega⟩ : Fin 2) c) ?_).trans ?_
  · rewrite [Shape.rowMajor_val_four, Shape.rowMajor_val_three]
    show ((z.val * 128 + r.val / 2) * 2 + r.val % 2) * 1024 + c.val = (z.val * 256 + r.val) * 1024 + c.val
    omega
  · by_cases h0 : r.val % 2 = 0
    · rw [if_pos h0]
      refine (concatenate_pair_apply_left (t := S1x128x2x1024) (s₁ := S1x128x1x1024) (s₂ := S1x128x1x1024) (2 : Fin 4) _ _ concatenates_S1x128x1x1024_S1x128x1x1024_S1x128x2x1024_d2 _ rfl
        (ix4 z (hfb r) (0 : Fin 1) c) ?_).trans (unitRowK_apply e z (hfb r) 0 c)
      intro k
      match k with
      | ⟨0, _⟩ => rfl
      | ⟨1, _⟩ => rfl
      | ⟨2, _⟩ => show (0 : Nat) = r.val % 2; omega
      | ⟨3, _⟩ => rfl
    · rw [if_neg h0]
      refine (concatenate_pair_apply_right (t := S1x128x2x1024) (s₁ := S1x128x1x1024) (s₂ := S1x128x1x1024) (2 : Fin 4) _ _ concatenates_S1x128x1x1024_S1x128x1x1024_S1x128x2x1024_d2 _ rfl rfl
        (ix4 z (hfb r) (0 : Fin 1) c) ?_ ?_).trans (unitRowK_apply o z (hfb r) 0 c)
      · intro k hk
        match k, hk with
        | ⟨0, _⟩, _ => rfl
        | ⟨1, _⟩, _ => rfl
        | ⟨2, _⟩, hk => exact absurd rfl hk
        | ⟨3, _⟩, _ => rfl
      · show (0 : Nat) + 1 = r.val % 2; omega

/-- ENTRY (r, s) OF THE STORED BLOCK, from the loaded blocks `v0` (of `u`) and `v2` (of `d`): on an even row d, u, d, u, …,
    on an odd row u, d, u, d, …, each from row r / 2 and column s / 2. -/
theorem pay_apply (v0 v2 : Vec F S1x128x512 .f32) (z : Fin 1) (r : Fin 256) (s : Fin 1024) :
    k0_pay1 v0 v2 (ix3 z r s)
      = if r.val % 2 = 0 then (if s.val % 2 = 0 then v2 (ix3 z (hfb r) (hf s)) else v0 (ix3 z (hfb r) (hf s)))
        else (if s.val % 2 = 0 then v0 (ix3 z (hfb r) (hf s)) else v2 (ix3 z (hfb r) (hf s))) := by
  rw [pay_eq, rowsK_apply, colsK_apply, colsK_apply]

end Cert.KernelIdeal.Body

end
-- ==== Proof.KernelArray.lean ====
/-
  What the kernel's result array holds after the run, as one function of the argument arrays.

  The program reads its two arguments as 48 planes each (a host reshape), runs the body over a grid of 48 × 4 points —
  point (n, k) loads rows 128 k … 128 k + 127 of plane n of `u` and of `d` and writes rows 256 k … 256 k + 255 of
  plane n of the output, all 1024 columns — and splits the output's 48 planes back into 16 × 3 (a host reshape).
  * `flushed_eq`: what point (n, k) writes back is its block of `checker3 u' d'`, the interleave of the 48-plane
    arrays: entry (r, s) of the stored block is the interleave's cell at (r, s) of the two loaded blocks
    (`Body.pay_apply`), the output entry's row 256 k + r has the parity of r, its half is 128 k + r / 2 — the input
    block's row r / 2 —, and the column axis is not tiled.
  * `cover`: row R of plane n lies in the block of point 4 n + R / 256, so the blocks cover the output array, which
    therefore ends at `checker3 u' d'` (`final`).
  * `result`: through the two host reshapes the program's result is `checker4 u d` of its arguments, by
    `Checker.reshape_checker3`; `run` restates the frame run with that value.
-/
import proofs.«150761_j70944269795383_1_alg».proof.Proof.Gen.KernelIdeal.Frame
import proofs.«150761_j70944269795383_1_alg».proof.Proof.BodyChecker
import proofs.«150761_j70944269795383_1_alg».proof.Proof.Checker
import Idealize.ShloMosaic.Lib.Pipeline.Value
import Idealize.ShloMosaic.Lib.StableHlo.Run
import Idealize.ShloMosaic.Lib.ValueIdx

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.Checker Cert.KernelIdeal.Body

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- The index maps over the grid: point t is (plane t / 4, row block t % 4); the column axis has one block; the two
    input windows move with the output window. -/
theorem idx_facts : ∀ t : Fin cfg0.N,
    win0_2.index t (0 : Fin 3) = t.val / 4 ∧ win0_2.index t (1 : Fin 3) = t.val % 4 ∧ win0_2.index t (2 : Fin 3) = 0
    ∧ win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0 :=
  (by decide +kernel : ∀ t : Fin grid0.N, _)

/-- One entry of a stored block against the interleave's cell of two 48-plane arrays `U`, `D`: if the output entry
    (n, R, S) has the parities of the block entry (r, s), and the loaded blocks at (r / 2, s / 2) are `U` and `D` at
    (n, R / 2, S / 2), the stored value is the cell. -/
theorem cell_of_block (x0 x1 : Vec F S1x128x512 .f32) (U D : (⟨3, ![48, 512, 512]⟩ : Shape).Idx → Elt F .f32)
    (z : Fin 1) (r : Fin 256) (s : Fin 1024) (n : Fin 48) (R S : Fin 1024)
    (hR : R.val % 2 = r.val % 2) (hS : S.val % 2 = s.val % 2)
    (h0 : x0 (ix3 z (hfb r) (hf s)) = U (ix3 n (hf R) (hf S)))
    (h1 : x1 (ix3 z (hfb r) (hf s)) = D (ix3 n (hf R) (hf S))) :
    k0_pay1 x0 x1 (ix3 z r s) = cell (fun r' s' => U (ix3 n r' s')) (fun r' s' => D (ix3 n r' s')) R S := by
  rw [pay_apply, h0, h1]
  show _ = if R.val % 2 = 0 then (if S.val % 2 = 0 then D (ix3 n (hf R) (hf S)) else U (ix3 n (hf R) (hf S)))
    else (if S.val % 2 = 0 then U (ix3 n (hf R) (hf S)) else D (ix3 n (hf R) (hf S)))
  rw [hR, hS]

/-- WHAT POINT `t` WRITES BACK is block `t` of the interleave of the two 48-plane arrays as the region finds them. -/
theorem flushed_eq (c : Dev nD) (t : Fin cfg0.N) :
    (dats m 0 c).flushed 2 t = ((cfg0.win 2).blk t).view.read (Elt F) (checker3 (α := Elt F .f32) (V m c main_v0) (V m c main_v1)) := by
  show (cfg0.win 2).cut (grid0.coords t) ((dats m 0 c).after 2 t) = _
  rw [after0_2]
  unfold out0_2
  rw [View.canon_unit_zero zero_offsets]
  simp only [View.ld_unit_zero (S := S1x128x512) zero_offsets]
  obtain ⟨e0, e1, e2, f0, f1, f2, g0, g1, g2⟩ := idx_facts t
  funext y
  obtain ⟨z, r, s, rfl⟩ : ∃ (z : Fin 1) (r : Fin 256) (s : Fin 1024), y = ix3 z r s := ⟨y 0, y 1, y 2, eq_ix3 y⟩
  have hz := z.isLt
  have hr := r.isLt
  have hs := s.isLt
  show k0_pay1 (iblk m c 0 t) (iblk m c 1 t) (ix3 z r s)
    = checker3 (α := Elt F .f32) (V m c main_v0) (V m c main_v1) (((cfg0.win 2).blk t).view.emb (ix3 z r s))
  refine cell_of_block (iblk m c 0 t) (iblk m c 1 t) (V m c main_v0) (V m c main_v1) z r s
    ((((cfg0.win 2).blk t).view.emb (ix3 z r s)) 0) ((((cfg0.win 2).blk t).view.emb (ix3 z r s)) 1)
    ((((cfg0.win 2).blk t).view.emb (ix3 z r s)) 2) ?_ ?_ ?_ ?_
  · show (win0_2.index t (1 : Fin 3) * 256 + 1 * r.val) % 2 = r.val % 2
    omega
  · show (win0_2.index t (2 : Fin 3) * 1024 + 1 * s.val) % 2 = s.val % 2
    omega
  · show V m c main_v0 (((cfg0.win 0).blk t).view.emb (ix3 z (hfb r) (hf s))) = _
    refine congrArg (V m c main_v0) (funext fun a => Fin.ext ?_)
    match a with
    | ⟨0, _⟩ => show win0_0.index t (0 : Fin 3) * 1 + 1 * z.val = win0_2.index t (0 : Fin 3) * 1 + 1 * z.val; omega
    | ⟨1, _⟩ => show win0_0.index t (1 : Fin 3) * 128 + 1 * (r.val / 2) = (win0_2.index t (1 : Fin 3) * 256 + 1 * r.val) / 2; omega
    | ⟨2, _⟩ => show win0_0.index t (2 : Fin 3) * 512 + 1 * (s.val / 2) = (win0_2.index t (2 : Fin 3) * 1024 + 1 * s.val) / 2; omega
  · show V m c main_v1 (((cfg0.win 1).blk t).view.emb (ix3 z (hfb r) (hf s))) = _
    refine congrArg (V m c main_v1) (funext fun a => Fin.ext ?_)
    match a with
    | ⟨0, _⟩ => show win0_1.index t (0 : Fin 3) * 1 + 1 * z.val = win0_2.index t (0 : Fin 3) * 1 + 1 * z.val; omega
    | ⟨1, _⟩ => show win0_1.index t (1 : Fin 3) * 128 + 1 * (r.val / 2) = (win0_2.index t (1 : Fin 3) * 256 + 1 * r.val) / 2; omega
    | ⟨2, _⟩ => show win0_1.index t (2 : Fin 3) * 512 + 1 * (s.val / 2) = (win0_2.index t (2 : Fin 3) * 1024 + 1 * s.val) / 2; omega

/-- An entry of the output array is in point `t`'s block iff each coordinate is in the block's range on its axis. -/
theorem mem_blk (t : Fin cfg0.N) (i : S48x1024x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v2).slice (win0_2.rect t)).set ↔ _
  rw [View.set_slice_whole, Rect.mem_set_unit]
  exact Iff.rfl

/-- THE BLOCKS COVER THE OUTPUT: row R of plane n is written by point 4 n + R / 256. -/
theorem cover (i : S48x1024x1024.Idx) :
    ∃ t : Fin cfg0.N, (cfg0.win 2).flush t = true ∧ i ∈ ((cfg0.win 2).blk t).view.set := by
  have h0 : (i 0).val < 48 := (i 0).isLt
  have h1 : (i 1).val < 1024 := (i 1).isLt
  have h2 : (i 2).val < 1024 := (i 2).isLt
  have hN : grid0.N = 192 := N_0
  obtain ⟨t, ht⟩ : ∃ t : Fin cfg0.N, t.val = (i 0).val * 4 + (i 1).val / 256 :=
    ⟨⟨(i 0).val * 4 + (i 1).val / 256, by show _ < grid0.N; rw [hN]; omega⟩, rfl⟩
  obtain ⟨e0, e1, e2, -⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 1024 ≤ (i 2).val ∧ (i 2).val < win0_2.index t (2 : Fin 3) * 1024 + 1024
    omega

/-- THE OUTPUT ARRAY after the region: the interleave of the two 48-plane arrays. -/
theorem final (c : Dev nD) :
    (dats m 0 c).arrAt 2 cfg0.N = checker3 (α := Elt F .f32) (V m c main_v0) (V m c main_v1) :=
  (dats m 0 c).arrAt_eq_of_cover 2 _ (fun t _ => flushed_eq m c t) cover

/-- The region finds `u` re-read as 48 planes: the host reshape before it. -/
theorem V_main_v0 (c : Dev nD) : (V m c main_v0 : S48x512x512.Idx → Elt F .f32)
    = shapeCast S48x512x512 (m ((c.tc : Thread nD τ).loc main_arg0)) shapeCasts_S16x3x512x512_S48x512x512 := by
  show StableHlo.after hostOps0 (fun b => m (c, b)) (Proc.devRef .tc main_v0) = _
  after_results
  rfl

/-- The region finds `d` re-read as 48 planes. -/
theorem V_main_v1 (c : Dev nD) : (V m c main_v1 : S48x512x512.Idx → Elt F .f32)
    = shapeCast S48x512x512 (m ((c.tc : Thread nD τ).loc main_arg1)) shapeCasts_S16x3x512x512_S48x512x512 := by
  show StableHlo.after hostOps0 (fun b => m (c, b)) (Proc.devRef .tc main_v1) = _
  after_results
  rfl

/-- The host reshape after the region reads the region's output array. -/
theorem tail_eq (c : Dev nD) :
    (Pipeline.afterTail₀ cfgs (dats m) 0 (V0 m) [hostOps1] c main_v3 : S16x3x1024x1024.Idx → Elt F .f32)
      = shapeCast S16x3x1024x1024 ((dats m 0 c).arrAt 2 cfg0.N) shapeCasts_S48x1024x1024_S16x3x1024x1024 := by
  unfold Pipeline.afterTail₀
  show StableHlo.after hostOps1 _ (Proc.devRef .tc main_v3) = _
  after_results
  exact congrArg (fun x => shapeCast S16x3x1024x1024 x shapeCasts_S48x1024x1024_S16x3x1024x1024)
    (Pipeline.withArrays_arr spec0 launch0.win.arr_inj c _ _ 2)

/-- THE PROGRAM'S RESULT: the interleave of its two arguments. -/
theorem result (c : Dev nD) :
    Pipeline.afterTail₀ cfgs (dats m) 0 (V0 m) [hostOps1] c main_v3
      = checker4 (α := Elt F .f32) (m ((c.tc : Thread nD τ).loc main_arg0)) (m ((c.tc : Thread nD τ).loc main_arg1)) := by
  rw [tail_eq, final, V_main_v0, V_main_v1]
  exact reshape_checker3 _ _ _ _

/-- The frame run with the result read: every weakly fair execution ends with the result at the interleave of the
    arguments and the arguments unchanged. -/
theorem run : θ_run defs (onTc (τ := τ) (main (F := F))) ⟨m, fun _ => 0, ρ⟩ fun r => ∀ c : Dev nD,
      r.2.mem ((c.tc : Thread nD τ).loc main_v3)
        = checker4 (α := Elt F .f32) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Array

end
-- ==== Proof.lean ====
/-
  A checkerboard upsampling kernel against its jnp reference: the two compute one array.

  From two arrays `u`, `d` of 16 × 3 planes of 512 × 512 numbers both programs produce 16 × 3 planes of 1024 × 1024:
  entry (R, C) of a plane is `d` at (R / 2, C / 2) when R and C have the same parity and `u` there otherwise
  (`Checker.checker4 u d`). No arithmetic is done on the numbers, so the claim needs nothing of its precondition.

  * The reference lays `d`, `u` side by side along the columns for the even rows and `u`, `d` for the odd rows, then takes
    rows from the two in turn; read entry by entry that is the interleave (`RefChecker.result_eq`, over the reference's
    run and its operations read at an index).
  * The kernel reads its arguments as 48 planes, and at grid point (n, k) interleaves 128 rows of plane n the same way
    into 256 rows of the output; the blocks tile the output array, a block's row 256 k + r has the parity of r and
    comes from row 128 k + r / 2, so the array is the interleave of the 48-plane arrays, and splitting 48 back into
    16 × 3 gives the interleave of the arguments (`Array.run`, over the kernel's frame run).
  * The frames are the programs' runs with the result dropped; the idealization rewrote nothing, so `preserves` is
    trivial.
-/
import proofs.«150761_j70944269795383_1_alg».proof.Defs
import proofs.«150761_j70944269795383_1_alg».proof.Proof.Gen.Kernel
import proofs.«150761_j70944269795383_1_alg».proof.Proof.Gen.Kernel.Skeleton
import proofs.«150761_j70944269795383_1_alg».proof.Proof.Gen.Kernel.Launch
import proofs.«150761_j70944269795383_1_alg».proof.Proof.Gen.Kernel.Points
import proofs.«150761_j70944269795383_1_alg».proof.Proof.Gen.Kernel.Frame
import proofs.«150761_j70944269795383_1_alg».proof.Proof.Gen.KernelIdeal
import proofs.«150761_j70944269795383_1_alg».proof.Proof.Gen.KernelIdeal.Skeleton
import proofs.«150761_j70944269795383_1_alg».proof.Proof.Gen.KernelIdeal.Launch
import proofs.«150761_j70944269795383_1_alg».proof.Proof.Gen.KernelIdeal.Points
import proofs.«150761_j70944269795383_1_alg».proof.Proof.Gen.KernelIdeal.Frame
import proofs.«150761_j70944269795383_1_alg».proof.Proof.Gen.ReferenceIdeal
import proofs.«150761_j70944269795383_1_alg».proof.Proof.Gen.Pre_finite_inputs
import proofs.«150761_j70944269795383_1_alg».proof.Proof.Gen.ReferenceIdeal.Run
import proofs.«150761_j70944269795383_1_alg».proof.Proof.Gen.ReferenceIdeal.Read
import proofs.«150761_j70944269795383_1_alg».proof.Proof.Checker
import proofs.«150761_j70944269795383_1_alg».proof.Proof.RefChecker
import proofs.«150761_j70944269795383_1_alg».proof.Proof.KernelArray
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `u` and `d`, the kernel's result and the reference's are both the interleave of `u` and `d`. -/
theorem algebraic : Cert.algebraic_KernelIdeal_ReferenceIdeal := by
  intro m ρ m' ρ' _ hagree
  refine ⟨fun c => Cert.Checker.checker4 (α := Elt Ideal .f32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefChecker.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
